-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S800000 .f32) (main_arg3 : FVec F S128x128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S5000x128 : Shape := ⟨2, ![5000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 33
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S128x128, .f32⟩
  | .hbm, ⟨11, _⟩ => ⟨S128x128, .f32⟩
  | .hbm, ⟨12, _⟩ => ⟨S50000x128, .f32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x128, .f32⟩
  | .hbm, ⟨24, _⟩ => ⟨S800000x128, .f32⟩
  | .hbm, ⟨25, _⟩ => ⟨S800000x128, .bf16⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S1x128, .f32⟩
  | .hbm, ⟨32, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S128x128, .f32⟩
  | .hbm, ⟨27, _⟩ => ⟨S50000x128, .f32⟩
  | .hbm, ⟨28, _⟩ => ⟨S128x128, .f32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel's run with its RESULT named. @main is four segments — a stretch of host operations, the first
  pallas_call (x · W_relᵀ, block by block), a second stretch (the gather along the edges' sources, the scaling by the
  edge weights and the scatter-add onto the edges' targets) and the second pallas_call (x · W_rootᵀ + agg + b) —, and
  the buffer contents at each boundary are the fold `W0 … W4` of the frame certificate. Every weakly fair execution
  terminates with every unscoped buffer at the last boundary's contents; read at the result buffer this names the
  result array `W4 … main_v23`, and at the six argument buffers it gives back the launch contents.
-/
import proofs.«150747_j87806311399691_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of @main terminates, nothing faulting, with the result buffer at the last boundary's
    contents and the six argument buffers as launched. -/
theorem run_main : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.RunV

end
-- ==== Proof.Payload.lean ====
/-
  The two kernel bodies' arithmetic, read at an index, at the ideal instance.
  Both bodies multiply a 5000×128 block of node features by a 128×128 weight block on the matrix unit, into a zero
  accumulator; the conversions to bf16 are the identity on extended reals and the shape cast is between equal shapes.
  So entry (r, d) of the product is the sum over k of block(r, k) · weight(k, d). The second body then adds the
  aggregated block entry by entry and the bias row along the lanes.
-/
import proofs.«150747_j87806311399691_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic

/-- The block's entry the product reads on the left at output entry `j` and contraction index `k`: (row of j, k). -/
abbrev lix (j : S5000x128.Idx) (k : Fin 128) : S5000x128.Idx := fun a => match a with
  | ⟨0, _⟩ => ⟨(j 0).val, (j 0).isLt⟩
  | ⟨1, _⟩ => ⟨k.val, k.isLt⟩
/-- The weight's entry it reads on the right: (k, column of j). -/
abbrev rix (j : S5000x128.Idx) (k : Fin 128) : S128x128.Idx := fun a => match a with
  | ⟨0, _⟩ => ⟨k.val, k.isLt⟩
  | ⟨1, _⟩ => ⟨(j 1).val, (j 1).isLt⟩
/-- The bias row's entry the broadcast reads at `j`: (0, column of j). -/
abbrev bix (j : S5000x128.Idx) : S1x128.Idx := fun a => match a with
  | ⟨0, _⟩ => ⟨0, Nat.zero_lt_one⟩
  | ⟨1, _⟩ => ⟨(j 1).val, (j 1).isLt⟩

/-- The product's dimension numbers: rows × contraction times contraction × columns, no batch axis. -/
abbrev D : DotDims S5000x128 S128x128 S5000x128 := dot_S5000x128_S128x128_S5000x128_1_0_0_1_n_n

theorem lhs_0 (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs_1 (i : S5000x128.Idx) (q : D.contr.Idx) : (D.lhsIdx i q 1).val = (q ⟨0, by decide⟩).val :=
  D.lhsIdx_val_of_single rfl i q
theorem rhs_0 (i : S5000x128.Idx) (q : D.contr.Idx) : (D.rhsIdx i q 0).val = (q ⟨0, by decide⟩).val :=
  D.rhsIdx_val_of_single rfl i q
theorem rhs_1 (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The matrix unit's product of a block and a weight into the zero accumulator, at entry `j`: the sum over the 128
    contracted positions of block(row j, k) · weight(k, column j). -/
theorem mm_apply (l : FVec Ideal S5000x128 .bf16) (r : FVec Ideal S128x128 .bf16) (j : S5000x128.Idx) :
    matmul (F := Ideal) D none l r (constant S5000x128 .f32 0x00000000#32) j = ∑ k : Fin 128, l (lix j k) * r (rix j k) := by
  show FloatOps.matmul D none l r (constant S5000x128 .f32 0x00000000#32) j = _
  rw [Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : D.lhsIdx j ((ValueIdx.contrEquiv1 D 128 rfl rfl).symm k) = lix j k := funext fun a => Fin.ext (by
    match a with
    | ⟨0, _⟩ => exact lhs_0 _ _
    | ⟨1, _⟩ => exact (lhs_1 _ _).trans hk)
  have er : D.rhsIdx j ((ValueIdx.contrEquiv1 D 128 rfl rfl).symm k) = rix j k := funext fun a => Fin.ext (by
    match a with
    | ⟨0, _⟩ => exact (rhs_0 _ _).trans hk
    | ⟨1, _⟩ => exact rhs_1 _ _)
  rw [el, er]

/-- The first body's stored value at entry `j`. -/
theorem pay0_apply (x0 : Vec Ideal S5000x128 .f32) (x1 : Vec Ideal S128x128 .f32) (j : S5000x128.Idx) :
    k0_pay1 (F := Ideal) x0 x1 j = ∑ k : Fin 128, x0 (lix j k) * x1 (rix j k) := by
  unfold k0_pay1
  rw [shapeCast_self]
  exact mm_apply _ _ j

/-- The second body's stored value at entry `j`: the product, plus the aggregated block's entry, plus the bias at
    `j`'s column. -/
theorem pay1_apply (v0 : Vec Ideal S5000x128 .f32) (v2 : Vec Ideal S128x128 .f32) (v6 : Vec Ideal S5000x128 .f32)
    (v9 : Vec Ideal S1x128 .f32) (j : S5000x128.Idx) :
    k1_pay1 (F := Ideal) v0 v2 v6 v9 j = ((∑ k : Fin 128, v0 (lix j k) * v2 (rix j k)) + v6 j) + v9 (bix j) := by
  unfold k1_pay1
  rw [shapeCast_self, shapeCast_self, shapeCast_self]
  show (matmul (F := Ideal) D none _ _ (constant S5000x128 .f32 0x00000000#32) j + v6 j) + broadcastTo S5000x128 v9 broadcasts_S1x128_S5000x128 j = _
  rw [mm_apply, broadcastTo_apply v9 broadcasts_S1x128_S5000x128 j (bix j) (fun a => by
    match a with
    | ⟨0, _⟩ => rfl
    | ⟨1, _⟩ => rfl)]
  rfl

end Cert.KernelIdeal.Pay

end
-- ==== Proof.EdgeSum.lean ====
/-
  Finite sums of real numbers inside the extended reals, and the one algebraic law this certificate rests on:
  a weighted sum over a set of edges of inner products with a fixed row of a weight matrix is the inner product,
  with that row, of the weighted sums taken coordinate by coordinate. Over the reals this is distributivity and an
  exchange of two finite sums; on the extended reals it holds for finite entries, which is how it is stated here
  (every entry the coercion of a real).
-/
import Idealize.ShloMosaic.PureOps.Ideal

open scoped BigOperators

namespace Cert.EdgeSum

/-- The coercion of the reals into the extended reals commutes with a finite sum. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- Aggregating after the linear map equals aggregating before it: for edge weights `a e`, edge rows `x e` and a
    weight row `w`, all real, `∑ₑ a e · (∑ₖ x e k · w k) = ∑ₖ (0 + ∑ₑ a e · x e k) · w k` in the extended reals. -/
theorem edge_sum_linear {E K : Type} [Fintype K] (T : Finset E) (a : E → ℝ) (x : E → K → ℝ) (w : K → ℝ) :
    ∑ e ∈ T, (a e : EReal) * ∑ k, (x e k : EReal) * (w k : EReal)
      = ∑ k, (0 + ∑ e ∈ T, (a e : EReal) * (x e k : EReal)) * (w k : EReal) := by
  simp only [zero_add, ← EReal.coe_mul, ← coe_sum]
  refine congrArg _ ?_
  simp only [Finset.mul_sum, Finset.sum_mul]
  rw [Finset.sum_comm]
  exact Finset.sum_congr rfl fun k _ => Finset.sum_congr rfl fun e _ => by ring

end Cert.EdgeSum
-- ==== Proof.EdgeIdx.lean ====
/-
  The two irregular host operations of a graph convolution, read at an index.
  `x[src]` is a `stablehlo.gather` of whole rows: result entry (e, c) is the operand's entry (row e, c), where row e
  is the signed start word at (e, 0) clamped into the table — a function of the index array alone, not of the operand.
  `segment_sum(msg, dst)` is a `stablehlo.scatter` with an `add` body: update entry (e, c) lands on operand entry
  (n, c) exactly when the signed word at (e, 0) is n (not clamped: an update outside the table is dropped). So at the
  ideal instance the accumulating scatter at (n, d) is the operand's entry plus the sum, over the edges whose target
  word is n, of the update's entry (e, d).
-/
import Idealize.ShloMosaic.PureOps.Ideal
import Idealize.ShloMosaic.Lib.ValueIdx

noncomputable section

open scoped BigOperators

namespace Cert.EdgeIdx

open Idealize.ShloMosaic Idealize.ShloMosaic.ValueIdx

/-- The node table, the index column and the per-edge rows. -/
abbrev SN : Shape := ⟨2, ![50000, 128]⟩
abbrev SI : Shape := ⟨2, ![800000, 1]⟩
abbrev SU : Shape := ⟨2, ![800000, 128]⟩

/-- Edge `e`'s position in the index column. -/
abbrev sIx (e : Fin 800000) : SI.Idx := ix2 e (⟨0, Nat.zero_lt_one⟩ : Fin 1)

/-! ## The row gather -/

/-- The dimension numbers of `x[idx]` along axis 0: axis 0 collapsed and indexed, axis 1 an offset axis. -/
def gD (wf : GatherDims.WF SN SI SU [1] [0] [] [0] [] 1 ![1, 128]) : GatherDims SN SI SU where
  offsetDims := [1]
  collapsedSliceDims := [0]
  operandBatchingDims := []
  startIndicesBatchingDims := []
  startIndexMap := [0]
  indexVectorDim := 1
  sliceSizes := ![1, 128]
  wf := wf

/-- The row edge `e` reads: its start word, signed, clamped into `0 … 49999`. -/
def grow {w : Nat} (idx : IVec SI w) (e : Fin 800000) : Fin 50000 :=
  ⟨min (idx (sIx e)).toInt.toNat 49999, by omega⟩

/-- The gather's result at (e, c) is the operand at (row e, c). -/
theorem gather_apply {α : Type} (wf : GatherDims.WF SN SI SU [1] [0] [] [0] [] 1 ![1, 128]) (x : SN.Idx → α) {w : Nat}
    (idx : IVec SI w) (j : SU.Idx) :
    Host.gather (gD wf) x idx j = x (ix2 (grow idx (j 0)) (j 1)) := by
  unfold Host.gather
  congr 1
  funext a
  apply Fin.ext
  match a with
  | ⟨0, _⟩ =>
    show (gD wf).start j idx 0 + (gD wf).batchCoord j 0 + (gD wf).offCoord j 0 = min (idx (sIx (j 0))).toInt.toNat 49999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gD wf).startIndexMap from List.mem_singleton.mpr rfl)]
    have hsi : (gD wf).siIdx j ⟨List.idxOf (0 : Fin 2) (gD wf).startIndexMap,
        List.idxOf_lt_length_iff.2 (List.mem_singleton.mpr rfl)⟩ = sIx (j 0) := by
      funext b; refine Fin.ext ?_
      match b with
      | ⟨0, _⟩ => rfl
      | ⟨1, _⟩ => rfl
    rw [hsi]
    rfl
  | ⟨1, _⟩ =>
    show (gD wf).start j idx 1 + (gD wf).batchCoord j 1 + (gD wf).offCoord j 1 = (j 1).val
    rw [GatherDims.batchCoord_eq_zero _ _ _ List.not_mem_nil]
    have hs : (gD wf).start j idx 1 = 0 := by
      have hn : ¬ (1 : Fin 2) ∈ (gD wf).startIndexMap := by
        show ¬ (1 : Fin 2) ∈ ([0] : List (Fin 2)); decide
      unfold GatherDims.start
      rw [dif_neg hn]
    have ho : (gD wf).offCoord j 1 = (j 1).val := by
      have hk : (1 : Fin 2) ∈ (gD wf).sKept := by
        show (1 : Fin 2) ∈ SN.kept (([0] : List (Fin 2)) ++ []); decide
      unfold GatherDims.offCoord
      rw [dif_pos hk]
      rfl
    rw [hs, ho]; omega

/-! ## The accumulating scatter -/

/-- The dimension numbers of `.at[idx].add(upd)` along axis 0: axis 0 inserted and indexed, axis 1 a window axis. -/
def sD (wf : ScatterDims.WF SN SI SU [1] [0] [0] 1) : ScatterDims SN SI SU where
  updateWindowDims := [1]
  insertedWindowDims := [0]
  scatterDimsToOperandDims := [0]
  indexVectorDim := 1
  wf := wf

section
variable (wf : ScatterDims.WF SN SI SU [1] [0] [0] 1) {w : Nat} (idx : IVec SI w) (j : SU.Idx)

theorem start_0 : (sD wf).start j idx 0 = (idx (sIx (j 0))).toInt := by
  unfold ScatterDims.start
  rw [dif_pos (show (0 : Fin 2) ∈ (sD wf).scatterDimsToOperandDims from List.mem_singleton.mpr rfl)]
  have hsi : (sD wf).siIdx j ⟨List.idxOf (0 : Fin 2) (sD wf).scatterDimsToOperandDims,
      List.idxOf_lt_length_iff.2 (List.mem_singleton.mpr rfl)⟩ = sIx (j 0) := by
    funext b; refine Fin.ext ?_
    match b with
    | ⟨0, _⟩ => rfl
    | ⟨1, _⟩ => rfl
  rw [hsi]
theorem start_1 : (sD wf).start j idx 1 = 0 := by
  have hn : ¬ (1 : Fin 2) ∈ (sD wf).scatterDimsToOperandDims := by
    show ¬ (1 : Fin 2) ∈ ([0] : List (Fin 2)); decide
  unfold ScatterDims.start
  rw [dif_neg hn]
theorem window_0 : (sD wf).window j 0 = 0 := by
  have hn : ¬ (0 : Fin 2) ∈ (sD wf).sKept := by
    show ¬ (0 : Fin 2) ∈ SN.kept ([0] : List (Fin 2)); decide
  unfold ScatterDims.window
  rw [dif_neg hn]
theorem window_1 : (sD wf).window j 1 = (j 1).val := by
  have hk : (1 : Fin 2) ∈ (sD wf).sKept := by
    show (1 : Fin 2) ∈ SN.kept ([0] : List (Fin 2)); decide
  unfold ScatterDims.window
  rw [dif_pos hk]
  rfl

/-- Update entry `j` lands on operand entry `i` exactly when `j`'s edge has target word `i`'s row and the columns agree. -/
theorem resultIdx?_eq_some (i : SN.Idx) :
    (sD wf).resultIdx? j idx = some i ↔ (idx (sIx (j 0))).toInt = ((i 0).val : Int) ∧ (j 1).val = (i 1).val := by
  have hi0 : (i 0).val < 50000 := (i 0).isLt
  have hi1 : (i 1).val < 128 := (i 1).isLt
  have hj1 : (j 1).val < 128 := (j 1).isLt
  unfold ScatterDims.resultIdx?
  split
  · rename_i h
    constructor
    · intro hf
      have hf' := Option.some.inj hf
      have h0 : (((sD wf).start j idx 0 + ((sD wf).window j 0 : Int)).toNat) = (i 0).val := congrArg (fun f : SN.Idx => (f 0).val) hf'
      have h1 : (((sD wf).start j idx 1 + ((sD wf).window j 1 : Int)).toNat) = (i 1).val := congrArg (fun f : SN.Idx => (f 1).val) hf'
      have hh := (h 0).1
      rw [start_0, window_0] at h0 hh
      rw [start_1, window_1] at h1
      constructor <;> omega
    · rintro ⟨h0, h1⟩
      refine congrArg some (funext fun a => Fin.ext ?_)
      match a with
      | ⟨0, _⟩ =>
        show (((sD wf).start j idx 0 + ((sD wf).window j 0 : Int)).toNat) = (i 0).val
        rw [start_0, window_0, h0]; omega
      | ⟨1, _⟩ =>
        show (((sD wf).start j idx 1 + ((sD wf).window j 1 : Int)).toNat) = (i 1).val
        rw [start_1, window_1]; omega
  · rename_i h
    constructor
    · intro hf; cases hf
    · rintro ⟨h0, h1⟩
      exfalso; apply h
      intro a
      match a with
      | ⟨0, _⟩ =>
        show 0 ≤ (sD wf).start j idx 0 + ((sD wf).window j 0 : Int) ∧ (sD wf).start j idx 0 + ((sD wf).window j 0 : Int) < ((50000 : Nat) : Int)
        rw [start_0, window_0, h0]; omega
      | ⟨1, _⟩ =>
        show 0 ≤ (sD wf).start j idx 1 + ((sD wf).window j 1 : Int) ∧ (sD wf).start j idx 1 + ((sD wf).window j 1 : Int) < ((128 : Nat) : Int)
        rw [start_1, window_1]; omega

/-- The edges whose target word is node `n`. -/
def tgt (n : Fin 50000) : Finset (Fin 800000) :=
  Finset.univ.filter fun e => (idx (sIx e)).toInt = ((n.val : Nat) : Int)

/-- The updates landing on (n, d), summed, are the sum over the edges targeting `n` of the update's entry (e, d). -/
theorem scatter_sum (upd : SU.Idx → EReal) (i : SN.Idx) [DecidablePred fun j : SU.Idx => (sD wf).resultIdx? j idx = some i] :
    ∑ j ∈ Finset.univ.filter (fun j : SU.Idx => (sD wf).resultIdx? j idx = some i), upd j
      = ∑ e ∈ tgt idx (i 0), upd (ix2 e (i 1)) := by
  refine (Finset.sum_bij (fun e _ => (ix2 e (i 1) : SU.Idx)) ?_ ?_ ?_ ?_).symm
  · intro e he
    rw [Finset.mem_filter]
    refine ⟨Finset.mem_univ _, (resultIdx?_eq_some wf idx _ i).2 ⟨?_, rfl⟩⟩
    exact (Finset.mem_filter.1 he).2
  · intro e₁ _ e₂ _ h
    exact congrFun h 0
  · intro j hj
    obtain ⟨h0, h1⟩ := (resultIdx?_eq_some wf idx j i).1 (Finset.mem_filter.1 hj).2
    refine ⟨j 0, Finset.mem_filter.2 ⟨Finset.mem_univ _, h0⟩, ?_⟩
    funext a
    match a with
    | ⟨0, _⟩ => rfl
    | ⟨1, _⟩ => exact Fin.ext h1.symm
  · intro e _; rfl

/-- The accumulating scatter at the ideal instance, read at (n, d). -/
theorem scatterAdd_apply (x : SN.Idx → EReal) (upd : SU.Idx → EReal) (i : SN.Idx) :
    Ideal.hostScatterAdd (sD wf) x idx upd i = x i + ∑ e ∈ tgt idx (i 0), upd (ix2 e (i 1)) := by
  unfold Ideal.hostScatterAdd
  rw [scatter_sum]

end

end Cert.EdgeIdx

end
-- ==== Proof.Spec.lean ====
/-
  The graph convolution as ONE function of its arguments, in two arrangements, and their equality.
  With T(n) the edges whose target is node n, r(e) the source row of edge e, a(e) its weight:
    the kernel applies W_rel to every node first and aggregates the transformed rows,
      out(n, d) = (∑ₖ x(n,k)·W_rootᵀ(k,d) + (0 + ∑_{e ∈ T(n)} a(e)·(∑ₖ x(r e,k)·W_relᵀ(k,d)))) + b(d);
    the reference aggregates the raw rows and transforms the aggregate,
      out(n, d) = (∑ₖ (0 + ∑_{e ∈ T(n)} a(e)·x(r e,k))·W_relᵀ(k,d) + ∑ₖ x(n,k)·W_rootᵀ(k,d)) + b(d).
  They agree when the features, the edge weights and W_rel are finite: the inner sums are then real, and over the
  reals the two are one double sum (distributivity and an exchange of the two summations). Addition on the extended
  reals is commutative, which moves the W_root term; nothing is asked of W_root or of b.
-/
import proofs.«150747_j87806311399691_2_alg».proof.Proof.EdgeSum
import proofs.«150747_j87806311399691_2_alg».proof.Proof.EdgeIdx

noncomputable section

open scoped BigOperators

namespace Cert.Spec

open Idealize.ShloMosaic Idealize.ShloMosaic.ValueIdx Cert.EdgeIdx

/-- A 128×128 weight matrix (held transposed: entry (k, d)). -/
abbrev SW : Shape := ⟨2, ![128, 128]⟩

/-- Node `i`'s feature `k`: the table's entry (row of i, k). -/
abbrev nix (i : SN.Idx) (k : Fin 128) : SN.Idx := fun a => match a with
  | ⟨0, _⟩ => ⟨(i 0).val, (i 0).isLt⟩
  | ⟨1, _⟩ => ⟨k.val, k.isLt⟩
/-- The transposed weight's entry (k, column of i). -/
abbrev wix (i : SN.Idx) (k : Fin 128) : SW.Idx := fun a => match a with
  | ⟨0, _⟩ => ⟨k.val, k.isLt⟩
  | ⟨1, _⟩ => ⟨(i 1).val, (i 1).isLt⟩

/-- The node table times a transposed weight: entry (n, d) is ∑ₖ X(n, k)·Wt(k, d). -/
def xw (X : SN.Idx → EReal) (Wt : SW.Idx → EReal) : SN.Idx → EReal :=
  fun i => ∑ k : Fin 128, X (nix i k) * Wt (wix i k)

variable {w : Nat}

/-- Transform, then aggregate (the kernel's arrangement). -/
def convK (x : SN.Idx → EReal) (a : Fin 800000 → EReal) (src dst : IVec SI w) (wrel wroot : SW.Idx → EReal)
    (b : Fin 128 → EReal) : SN.Idx → EReal :=
  fun i => (xw x wroot i + (0 + ∑ e ∈ tgt dst (i 0), a e * xw x wrel (ix2 (grow src e) (i 1)))) + b (i 1)

/-- Aggregate, then transform (the reference's arrangement). -/
def convR (x : SN.Idx → EReal) (a : Fin 800000 → EReal) (src dst : IVec SI w) (wrel wroot : SW.Idx → EReal)
    (b : Fin 128 → EReal) : SN.Idx → EReal :=
  fun i => ((∑ k : Fin 128, (0 + ∑ e ∈ tgt dst (i 0), a e * x (ix2 (grow src e) k)) * wrel (wix i k)) + xw x wroot i) + b (i 1)

theorem nix_ix2 (i : SN.Idx) (r : Fin 50000) (k : Fin 128) : nix (ix2 r (i 1)) k = ix2 r k := by
  funext a
  match a with
  | ⟨0, _⟩ => rfl
  | ⟨1, _⟩ => rfl
theorem wix_ix2 (i : SN.Idx) (r : Fin 50000) (k : Fin 128) : wix (ix2 r (i 1)) k = wix i k := by
  funext a
  match a with
  | ⟨0, _⟩ => rfl
  | ⟨1, _⟩ => rfl

/-- The two arrangements agree on finite features, edge weights and W_rel. -/
theorem convK_eq_convR (x : SN.Idx → EReal) (a : Fin 800000 → EReal) (src dst : IVec SI w) (wrel wroot : SW.Idx → EReal)
    (b : Fin 128 → EReal) (hx : ∀ i, ∃ r : ℝ, x i = (r : EReal)) (ha : ∀ e, ∃ r : ℝ, a e = (r : EReal))
    (hw : ∀ i, ∃ r : ℝ, wrel i = (r : EReal)) :
    convK x a src dst wrel wroot b = convR x a src dst wrel wroot b := by
  choose x' hx' using hx
  choose a' ha' using ha
  choose w' hw' using hw
  funext i
  unfold convK convR
  refine congrArg (· + b (i 1)) ?_
  rw [add_comm]
  refine congrArg (· + xw x wroot i) ?_
  rw [zero_add]
  have h := Cert.EdgeSum.edge_sum_linear (tgt dst (i 0)) a' (fun e k => x' (ix2 (grow src e) k)) (fun k => w' (wix i k))
  refine Eq.trans ?_ (h.trans ?_)
  · refine Finset.sum_congr rfl fun e _ => ?_
    refine congrArg₂ (· * ·) (ha' e) ?_
    unfold xw
    refine Finset.sum_congr rfl fun k _ => ?_
    exact congrArg₂ (· * ·) ((congrArg x (nix_ix2 i (grow src e) k)).trans (hx' _))
      ((congrArg wrel (wix_ix2 i (grow src e) k)).trans (hw' _))
  · refine Finset.sum_congr rfl fun k _ => ?_
    refine congrArg₂ (· * ·) (congrArg (0 + ·) ?_) (hw' _).symm
    refine Finset.sum_congr rfl fun e _ => ?_
    exact (congrArg₂ (· * ·) (ha' e) (hx' _)).symm

end Cert.Spec

end
-- ==== Proof.Region0.lean ====
/-
  The first pallas_call's output array, as one function of the arrays the region finds.
  The grid has ten points; point t stages rows 5000·t … 5000·t + 4999 of the node table, the whole transposed weight,
  and writes back the same rows of the output. Entry (r, d) of the block it writes is ∑ₖ block(r, k)·weight(k, d),
  and block(r, k) is the table's entry (5000·t + r, k): so every block is the restriction of the one array
  (n, d) ↦ ∑ₖ X(n, k)·Wt(k, d). The ten row blocks tile the 50000 rows (row n is in block n / 5000), so after the
  region the output array IS that function.
-/
import proofs.«150747_j87806311399691_2_alg».proof.Proof.Gen.KernelIdeal.Frame
import proofs.«150747_j87806311399691_2_alg».proof.Proof.Payload
import proofs.«150747_j87806311399691_2_alg».proof.Proof.Spec

set_option maxRecDepth 16384

noncomputable section

namespace Cert.KernelIdeal.Reg0

open Cert.KernelIdeal Cert.KernelIdeal.Gen Cert.KernelIdeal.Pay Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the table's and the output's row blocks move together, every column block and the
    weight's block stay at 0, and the row block index is at most 9. -/
theorem block_indices : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some point's. -/
theorem row_block_onto : ∀ q : Fin 10, ∃ t : Fin cfg0.N, win0_2.index t = ![q.val, 0] :=
  (by decide +kernel : ∀ q : Fin 10, ∃ t : Fin grid0.N, win0_2.index t = ![q.val, 0])

/-- What point `t` writes back is block `t` of `X · Wt`. -/
theorem flushed_eq (c : Dev nD) (t : Fin cfg0.N) :
    (dat0 V c).flushed 2 t = ((cfg0.win 2).blk t).view.read (Elt Ideal) (xw (V c main_arg0) (V c main_v4)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := block_indices t
  funext j
  refine (pay0_apply (iblk0 V c 0 t) (iblk0 V c 1 t) j).trans ?_
  show _ = xw (V c main_arg0) (V c main_v4) (((cfg0.win 2).blk t).view.emb j)
  unfold xw
  refine Finset.sum_congr rfl fun k _ => ?_
  have h0 : ((cfg0.win 0).blk t).view.emb (lix j k) = nix (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (rix j k) = wix (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) (congrArg (V c main_arg0) h0) (congrArg (V c main_v4) h1)

/-- An index of the output array is in point `t`'s block iff each coordinate is in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v6).slice (win0_2.rect t)).set ↔ _
  rw [View.set_slice_whole, Rect.mem_set_unit]
  exact Iff.rfl

/-- Row n is in the block of point n / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := row_block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array is `X · Wt` of the table and the transposed weight the region found. -/
theorem final (c : Dev nD) : (dat0 V c).arrAt 2 cfg0.N = xw (V c main_arg0) (V c main_v4) :=
  (dat0 V c).arrAt_eq_of_cover 2 _ (fun t _ => flushed_eq V c t) cover

end Cert.KernelIdeal.Reg0

end
-- ==== Proof.Region1.lean ====
/-
  The second pallas_call's output array, as one function of the arrays the region finds.
  Point t stages rows 5000·t … 5000·t + 4999 of the aggregated array and of the node table, the whole transposed root
  weight and the bias row, and writes back the same rows of the output: entry (r, d) of the block is
  (∑ₖ x-block(r, k)·weight(k, d) + agg-block(r, d)) + bias(0, d). Every block is the restriction of the one array
  (n, d) ↦ (∑ₖ X(n, k)·Wt(k, d) + A(n, d)) + B(0, d), and the ten row blocks tile the rows.
-/
import proofs.«150747_j87806311399691_2_alg».proof.Proof.Gen.KernelIdeal.Frame
import proofs.«150747_j87806311399691_2_alg».proof.Proof.Payload
import proofs.«150747_j87806311399691_2_alg».proof.Proof.Spec

set_option maxRecDepth 16384

noncomputable section

namespace Cert.KernelIdeal.Reg1

open Cert.KernelIdeal Cert.KernelIdeal.Gen Cert.KernelIdeal.Pay Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The bias row's entry above column `i₁`. -/
abbrev brow (i : S50000x128.Idx) : S1x128.Idx := fun a => match a with
  | ⟨0, _⟩ => ⟨0, Nat.zero_lt_one⟩
  | ⟨1, _⟩ => ⟨(i 1).val, (i 1).isLt⟩

/-- The epilogue as one array: (X · Wt + A) + the bias row broadcast down the rows. -/
def epi (A X : S50000x128.Idx → EReal) (Wt : S128x128.Idx → EReal) (B : S1x128.Idx → EReal) : S50000x128.Idx → EReal :=
  fun i => (xw X Wt i + A i) + B (brow i)

/-- The index maps over the grid: the aggregate's, the table's and the output's row blocks move together, every column
    block, the weight's block and the bias row's block stay at 0. -/
theorem block_indices : ∀ t : Fin cfg1.N, win1_0.index t (0 : Fin 2) = win1_4.index t (0 : Fin 2)
    ∧ win1_0.index t (1 : Fin 2) = 0 ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every one of the ten row blocks is some point's. -/
theorem row_block_onto : ∀ q : Fin 10, ∃ t : Fin cfg1.N, win1_4.index t = ![q.val, 0] :=
  (by decide +kernel : ∀ q : Fin 10, ∃ t : Fin grid1.N, win1_4.index t = ![q.val, 0])

/-- What point `t` writes back is block `t` of the epilogue array. -/
theorem flushed_eq (c : Dev nD) (t : Fin cfg1.N) :
    (dat1 V c).flushed 4 t = ((cfg1.win 4).blk t).view.read (Elt Ideal)
      (epi (V c main_v21) (V c main_arg0) (V c main_v5) (V c main_v22)) := by
  show (cfg1.win 4).cut (grid1.coords t) ((dat1 V c).after 4 t) = _
  rw [after1_4]
  unfold out1_4
  rw [View.canon_unit_zero origin]
  simp only [View.ld_unit_zero (S := S5000x128) origin, View.ld_unit_zero (S := S128x128) origin, View.ld_unit_zero (S := S1x128) origin]
  obtain ⟨e0, e1, e2, e3, e4, e5, e6, e7, e8, e9⟩ := block_indices t
  funext j
  refine (pay1_apply (iblk1 V c 1 t) (iblk1 V c 2 t) (iblk1 V c 0 t) (iblk1 V c 3 t) j).trans ?_
  show _ = epi (V c main_v21) (V c main_arg0) (V c main_v5) (V c main_v22) (((cfg1.win 4).blk t).view.emb j)
  unfold epi xw
  have hA : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have hB : ((cfg1.win 3).blk t).view.emb (bix j) = brow (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  have hX : ∀ k : Fin 128, ((cfg1.win 1).blk t).view.emb (lix j k) = nix (((cfg1.win 4).blk t).view.emb j) k := fun k => by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * k.val = k.val; omega
  have hW : ∀ k : Fin 128, ((cfg1.win 2).blk t).view.emb (rix j k) = wix (((cfg1.win 4).blk t).view.emb j) k := fun k => by
    funext a; apply Fin.ext
    match a with
    | ⟨0, _⟩ => show win1_2.index t (0 : Fin 2) * 128 + 1 * k.val = k.val; omega
    | ⟨1, _⟩ => show win1_2.index t (1 : Fin 2) * 128 + 1 * (j 1).val = win1_4.index t (1 : Fin 2) * 128 + 1 * (j 1).val; omega
  refine congrArg₂ (fun a b : EReal => a + b) (congrArg₂ (fun a b : EReal => a + b) (Finset.sum_congr rfl fun k _ => ?_) ?_) ?_
  · exact congrArg₂ (fun a b : EReal => a * b) (congrArg (V c main_arg0) (hX k)) (congrArg (V c main_v5) (hW k))
  · exact congrArg (V c main_v21) hA
  · exact congrArg (V c main_v22) hB

/-- An index of the output array is in point `t`'s block iff each coordinate is in the block's range. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v23).slice (win1_4.rect t)).set ↔ _
  rw [View.set_slice_whole, Rect.mem_set_unit]
  exact Iff.rfl

/-- Row n is in the block of point n / 5000. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := row_block_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the region the output array is the epilogue of the aggregate, the table, the transposed root weight and the
    bias row the region found. -/
theorem final (c : Dev nD) : (dat1 V c).arrAt 4 cfg1.N = epi (V c main_v21) (V c main_arg0) (V c main_v5) (V c main_v22) :=
  (dat1 V c).arrAt_eq_of_cover 4 _ (fun t _ => flushed_eq V c t) cover

end Cert.KernelIdeal.Reg1

end
-- ==== Proof.Aggregate.lean ====
/-
  The edge aggregation both programs share, as one function of a node table.
  `agg T a src dst` is `segment_sum(a[:, None] * T[src], dst)` at the ideal instance: the rows of the table `T` gathered
  along the edges' sources, each scaled by its edge's weight (the weight vector broadcast down the 128 lanes), and
  scatter-added from zero onto the edges' targets. Read at (n, d) it is `0 + ∑_{e : target e = n} a(e)·T(row e, d)`.
  The kernel applies it to the transformed table `x · W_relᵀ`, the reference to `x` itself.
-/
import proofs.«150747_j87806311399691_2_alg».proof.Proof.EdgeIdx
import Idealize.ShloMosaic.Lib.Pipeline.Value
import Idealize.ShloMosaic.PureOps.Ideal.Laws

noncomputable section

open scoped BigOperators

namespace Cert.Aggregate

open Idealize.ShloMosaic Idealize.ShloMosaic.ValueIdx Cert.EdgeIdx

/-- The per-edge vector and the scalar shape. -/
abbrev SE : Shape := ⟨1, ![800000]⟩
abbrev S0 : Shape := ⟨0, ![]⟩

variable {w : Nat}
  (wfg : GatherDims.WF SN SI SU [1] [0] [] [0] [] 1 ![1, 128]) (wfs : ScatterDims.WF SN SI SU [1] [0] [0] 1)
  (h0 : SE.BroadcastsInDim SI (![0] : Fin 1 → Fin SI.rank)) (h1 : SI.BroadcastsInDim SU (![0, 1] : Fin 2 → Fin SU.rank))
  (hz : S0.BroadcastsInDim SN (![] : Fin 0 → Fin SN.rank))

/-- Gather the table's rows along the sources, scale by the edge weights, scatter-add from zero onto the targets. -/
def agg (T : SN.Idx → EReal) (a : SE.Idx → EReal) (src dst : IVec SI w) : SN.Idx → EReal :=
  Ideal.hostScatterAdd (sD wfs) (broadcastInDim SN ![] hz (constant (F := Ideal) S0 .f32 0x00000000#32)) dst
    (mulf (F := Ideal) (φ := .f32) (broadcastInDim SU ![0, 1] h1 (broadcastInDim SI ![0] h0 a)) (Host.gather (gD wfg) T src))

/-- The weight vector made a column and broadcast down the lanes, read at (e, c): edge e's weight. -/
theorem weight_apply (a : SE.Idx → EReal) (e : Fin 800000) (c : Fin 128) :
    broadcastInDim SU ![0, 1] h1 (broadcastInDim SI ![0] h0 a) (ix2 e c) = a (ix1 e) := by
  refine (broadcastInDim_apply _ h1 (broadcastInDim SI ![0] h0 a) (ix2 e c) (sIx e) (fun b => match b with
    | ⟨0, _⟩ => by show e.val = if (800000 : Nat) = 1 then 0 else e.val; rw [if_neg (by decide)]
    | ⟨1, _⟩ => by show 0 = if (1 : Nat) = 1 then 0 else c.val; rw [if_pos rfl])).trans ?_
  exact broadcastInDim_apply _ h0 a (sIx e) (ix1 e) (fun b => match b with
    | ⟨0, _⟩ => by show e.val = if (800000 : Nat) = 1 then 0 else e.val; rw [if_neg (by decide)])

/-- The aggregate at (n, d): zero plus the sum over the edges targeting n of weight · the table's entry (row e, d). -/
theorem agg_apply (T : SN.Idx → EReal) (a : SE.Idx → EReal) (src dst : IVec SI w) (i : SN.Idx) :
    agg wfg wfs h0 h1 hz T a src dst i = 0 + ∑ e ∈ tgt dst (i 0), a (ix1 e) * T (ix2 (grow src e) (i 1)) := by
  unfold agg
  rw [scatterAdd_apply]
  refine congrArg₂ (fun p q : EReal => p + q) ?_ (Finset.sum_congr rfl fun e _ => ?_)
  · refine (broadcastInDim_apply _ hz (constant (F := Ideal) S0 .f32 0x00000000#32) i (fun b => b.elim0) (fun b => b.elim0)).trans ?_
    exact Ideal.ofBits_zero_f32
  · exact congrArg₂ (fun p q : EReal => p * q) (weight_apply h0 h1 a e _) (gather_apply wfg T src _)

end Cert.Aggregate

end
-- ==== Proof.KValue.lean ====
/-
  The idealized kernel's result array as the specification's "transform, then aggregate" function of the arguments.
  The buffer contents at the boundaries of @main's four segments are a fold from the launch memory. Walking it back:
  the first stretch transposes the two weights and splits the edge list into its source and target rows; the first
  pallas_call leaves x · W_relᵀ; the second stretch gathers that table's rows along the sources (negative indices
  wrapped once, as jnp does), scales them by the edge weights, rounds through bf16 and back (the identity on extended
  reals) and scatter-adds them from zero onto the targets, and reshapes the bias into a row; the second pallas_call
  leaves x · W_rootᵀ plus that aggregate plus the bias row. Read at an index this is the kernel's arrangement.
-/
import proofs.«150747_j87806311399691_2_alg».proof.Proof.Gen.KernelIdeal.Frame
import proofs.«150747_j87806311399691_2_alg».proof.Proof.Region0
import proofs.«150747_j87806311399691_2_alg».proof.Proof.Region1
import proofs.«150747_j87806311399691_2_alg».proof.Proof.Aggregate
import proofs.«150747_j87806311399691_2_alg».proof.Proof.Spec
import Idealize.ShloMosaic.Lib.StableHlo.Run
import Idealize.ShloMosaic.Lib.Pipeline.Value

set_option maxRecDepth 16384

noncomputable section

open scoped BigOperators

namespace Cert.KernelIdeal.Val

open Cert.KernelIdeal Cert.KernelIdeal.Gen Cert.Spec Cert.EdgeIdx Cert.Aggregate
open Idealize.ShloMosaic Idealize.ShloMosaic.TcCoe Idealize.SL.Sem Idealize.ShloMosaic.StableHlo Idealize.ShloMosaic.ValueIdx

/-! ## The host terms, named -/

/-- The edges' sources: row 0 of the 2 × E endpoint array, flattened. -/
def srcFlat (a1 : IVec S2x800000 32) : IVec S800000 32 :=
  shapeCast S800000 (extractStridedSlice S1x800000 ![0, 0] a1 slices_S2x800000_S1x800000_0_0) shapeCasts_S1x800000_S800000
/-- The edges' targets: row 1, flattened. -/
def dstFlat (a1 : IVec S2x800000 32) : IVec S800000 32 :=
  shapeCast S800000 (extractStridedSlice S1x800000 ![1, 0] a1 slices_S2x800000_S1x800000_1_0) shapeCasts_S1x800000_S800000
/-- The column of start indices of `table[src]`: a negative source wrapped once by the table's length. -/
def srcColOf (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- The column of scatter indices: the targets as they are. -/
def dstColOf (d : IVec S800000 32) : IVec S800000x1 32 :=
  broadcastInDim S800000x1 ![0] bcast_S800000_S800000x1_0 d
/-- A weight matrix transposed. -/
def wT (a : S128x128.Idx → EReal) : S128x128.Idx → EReal :=
  transpose S128x128 [1, 0] a transposes_S128x128_S128x128_1_0
/-- The bias as a 1 × 128 row. -/
def biasRow (a5 : S128.Idx → EReal) : S1x128.Idx → EReal :=
  shapeCast S1x128 a5 shapeCasts_S128_S1x128
/-- The second stretch's aggregate, from the flat targets, the edge weights, a node table and the flat sources. -/
def aggOf (d : IVec S800000 32) (a2 : S800000.Idx → EReal) (T : S50000x128.Idx → EReal) (s : IVec S800000 32) :
    S50000x128.Idx → EReal :=
  agg gather_S50000x128_S800000x1_S800000x128_1_0_n_n_0_1_1128_wf scatter_S50000x128_S800000x1_S800000x128_1_0_0_1_wf
    bcast_S800000_S800000x1_0 bcast_S800000x1_S800000x128_0_1 bcast_S_S50000x128 T a2 (srcColOf s) (dstColOf d)

variable (m : (ℓ : Loc nD τ sig) → Buf (Elt Ideal) ℓ) (ρ : Dev nD → PrngReg)

/-! ## The fold, walked back -/

/-- A buffer that is none of the first pallas_call's three arrays. -/
theorem ne0 (b : Ref sig .tc) (h0 : main_arg0 ≠ b) (h1 : main_v4 ≠ b) (h2 : main_v6 ≠ b) :
    ∀ w : Fin cfg0.W, Pipeline.arrRef spec0 w ≠ b := fun w => by
  match w with
  | ⟨0, _⟩ => exact h0
  | ⟨1, _⟩ => exact h1
  | ⟨2, _⟩ => exact h2

theorem V1_arg0 (c : Dev nD) : V1 m ρ c main_arg0 = (m ((c : Thread nD τ).loc main_arg0)) := by
  show StableHlo.after hostOps0 (W0 m ρ c) (Proc.devRef .tc main_arg0) = _
  after_results <;> rfl
theorem V1_v4 (c : Dev nD) : V1 m ρ c main_v4 = wT (m ((c : Thread nD τ).loc main_arg3)) := by
  show StableHlo.after hostOps0 (W0 m ρ c) (Proc.devRef .tc main_v4) = _
  after_results <;> rfl
/-- After the first pallas_call its output array holds x · W_relᵀ. -/
theorem W2_v6 (c : Dev nD) : W2 m ρ c (Proc.devRef .tc main_v6) = xw (m ((c : Thread nD τ).loc main_arg0)) (wT (m ((c : Thread nD τ).loc main_arg3))) :=
  (W2_arr m ρ c 2).trans ((Reg0.final (V1 m ρ) c).trans (congrArg₂ xw (V1_arg0 m ρ c) (V1_v4 m ρ c)))
theorem W2_arg0 (c : Dev nD) : W2 m ρ c (Proc.devRef .tc main_arg0) = (m ((c : Thread nD τ).loc main_arg0)) :=
  (W2_arr m ρ c 0).trans (((dat0 (V1 m ρ) c).arrAt_in 0 rfl _).trans ((A_eq0 (V1 m ρ) c 0).trans (V1_arg0 m ρ c)))
theorem W2_v1 (c : Dev nD) : W2 m ρ c (Proc.devRef .tc main_v1) = srcFlat (m ((c : Thread nD τ).loc main_arg1)) := by
  refine (W2_of_ne m ρ c main_v1 (ne0 _ (by decide) (by decide) (by decide))).trans ?_
  show StableHlo.after hostOps0 (W0 m ρ c) (Proc.devRef .tc main_v1) = _
  after_results <;> rfl
theorem W2_v3 (c : Dev nD) : W2 m ρ c (Proc.devRef .tc main_v3) = dstFlat (m ((c : Thread nD τ).loc main_arg1)) := by
  refine (W2_of_ne m ρ c main_v3 (ne0 _ (by decide) (by decide) (by decide))).trans ?_
  show StableHlo.after hostOps0 (W0 m ρ c) (Proc.devRef .tc main_v3) = _
  after_results <;> rfl
theorem W2_arg2 (c : Dev nD) : W2 m ρ c (Proc.devRef .tc main_arg2) = (m ((c : Thread nD τ).loc main_arg2)) := by
  refine (W2_of_ne m ρ c main_arg2 (ne0 _ (by decide) (by decide) (by decide))).trans ?_
  show StableHlo.after hostOps0 (W0 m ρ c) (Proc.devRef .tc main_arg2) = _
  after_results <;> rfl
theorem W2_arg5 (c : Dev nD) : W2 m ρ c (Proc.devRef .tc main_arg5) = (m ((c : Thread nD τ).loc main_arg5)) := by
  refine (W2_of_ne m ρ c main_arg5 (ne0 _ (by decide) (by decide) (by decide))).trans ?_
  show StableHlo.after hostOps0 (W0 m ρ c) (Proc.devRef .tc main_arg5) = _
  after_results <;> rfl
theorem W2_v5 (c : Dev nD) : W2 m ρ c (Proc.devRef .tc main_v5) = wT (m ((c : Thread nD τ).loc main_arg4)) := by
  refine (W2_of_ne m ρ c main_v5 (ne0 _ (by decide) (by decide) (by decide))).trans ?_
  show StableHlo.after hostOps0 (W0 m ρ c) (Proc.devRef .tc main_v5) = _
  after_results <;> rfl

theorem V3_arg0 (c : Dev nD) : V3 m ρ c main_arg0 = (m ((c : Thread nD τ).loc main_arg0)) := by
  show StableHlo.after hostOps1 (W2 m ρ c) (Proc.devRef .tc main_arg0) = _
  after_results
  exact W2_arg0 m ρ c
theorem V3_v5 (c : Dev nD) : V3 m ρ c main_v5 = wT (m ((c : Thread nD τ).loc main_arg4)) := by
  show StableHlo.after hostOps1 (W2 m ρ c) (Proc.devRef .tc main_v5) = _
  after_results
  exact W2_v5 m ρ c
theorem V3_v22 (c : Dev nD) : V3 m ρ c main_v22 = biasRow (m ((c : Thread nD τ).loc main_arg5)) := by
  show StableHlo.after hostOps1 (W2 m ρ c) (Proc.devRef .tc main_v22) = _
  after_results
  exact congrArg biasRow (W2_arg5 m ρ c)
/-- Entering the second pallas_call, the aggregate's buffer holds the edge aggregation of x · W_relᵀ. -/
theorem V3_v21 (c : Dev nD) : V3 m ρ c main_v21
    = aggOf (dstFlat (m ((c : Thread nD τ).loc main_arg1))) (m ((c : Thread nD τ).loc main_arg2)) (xw (m ((c : Thread nD τ).loc main_arg0)) (wT (m ((c : Thread nD τ).loc main_arg3)))) (srcFlat (m ((c : Thread nD τ).loc main_arg1))) := by
  show StableHlo.after hostOps1 (W2 m ρ c) (Proc.devRef .tc main_v21) = _
  after_results
  show aggOf (W2 m ρ c (Proc.devRef .tc main_v3)) (W2 m ρ c (Proc.devRef .tc main_arg2))
    (W2 m ρ c (Proc.devRef .tc main_v6)) (W2 m ρ c (Proc.devRef .tc main_v1)) = _
  rw [W2_v1, W2_v3, W2_arg2, W2_v6]

/-! ## The result -/

/-- The bias row above column `i₁` is the bias vector's entry `i₁`: a reshape keeps the row-major position. -/
theorem biasRow_apply (a5 : S128.Idx → EReal) (i : S50000x128.Idx) :
    biasRow a5 (Reg1.brow i) = a5 (ix1 (⟨(i 1).val, (i 1).isLt⟩ : Fin 128)) := by
  unfold biasRow
  exact shapeCast_apply a5 shapeCasts_S128_S1x128 (Reg1.brow i) (ix1 (⟨(i 1).val, (i 1).isLt⟩ : Fin 128))
    (by rewrite [Shape.rowMajor_val_one, Shape.rowMajor_val_two]; show (i 1).val = 0 * 128 + (i 1).val; omega)

/-- THE KERNEL'S RESULT ARRAY: transform every node by W_relᵀ, aggregate along the edges, add the root term and the bias. -/
theorem value (c : Dev nD) : W4 m ρ c (Proc.devRef .tc main_v23)
    = convK (m ((c : Thread nD τ).loc main_arg0)) (fun e => (m ((c : Thread nD τ).loc main_arg2)) (ix1 e)) (srcColOf (srcFlat (m ((c : Thread nD τ).loc main_arg1)))) (dstColOf (dstFlat (m ((c : Thread nD τ).loc main_arg1))))
        (wT (m ((c : Thread nD τ).loc main_arg3))) (wT (m ((c : Thread nD τ).loc main_arg4))) (fun d => (m ((c : Thread nD τ).loc main_arg5)) (ix1 d)) := by
  refine (W4_arr m ρ c 4).trans ((Reg1.final (V3 m ρ) c).trans ?_)
  rw [V3_v21, V3_arg0, V3_v5, V3_v22]
  funext i
  unfold Reg1.epi convK
  refine congrArg₂ (fun p q : EReal => p + q) (congrArg₂ (fun p q : EReal => p + q) rfl ?_) ?_
  · exact agg_apply _ _ _ _ _ (xw (m ((c : Thread nD τ).loc main_arg0)) (wT (m ((c : Thread nD τ).loc main_arg3)))) (m ((c : Thread nD τ).loc main_arg2)) (srcColOf (srcFlat (m ((c : Thread nD τ).loc main_arg1)))) (dstColOf (dstFlat (m ((c : Thread nD τ).loc main_arg1)))) i
  · exact biasRow_apply (m ((c : Thread nD τ).loc main_arg5)) i

end Cert.KernelIdeal.Val

end
-- ==== Proof.RValue.lean ====
/-
  The reference's result as the specification's "aggregate, then transform" function of the arguments.
  Read one operation at a time: the last two additions, the two contractions against the transposed weights as sums
  over the 128 features, the bias broadcast down the rows; the contraction's left operand is the edge aggregation of
  the raw node table (the accumulating scatter of the weighted gathered rows), read at an index as the sum over the
  edges targeting that node.
-/
import proofs.«150747_j87806311399691_2_alg».proof.Proof.Gen.ReferenceIdeal.Read
import proofs.«150747_j87806311399691_2_alg».proof.Proof.Aggregate
import proofs.«150747_j87806311399691_2_alg».proof.Proof.Spec

noncomputable section

open scoped BigOperators

namespace Cert.ReferenceIdeal.RefVal

open Cert.ReferenceIdeal Cert.ReferenceIdeal.Gen Cert.ReferenceIdeal.Read Cert.Spec Cert.EdgeIdx Cert.Aggregate
open Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x3 x4 : (⟨S128x128, .f32⟩ : BufTy).Contents (Elt Ideal))
  (x5 : (⟨S128, .f32⟩ : BufTy).Contents (Elt Ideal))

/-- The reference's aggregate is the shared edge aggregation of the raw table. -/
theorem agg_eq : val_main_v16 (F := Ideal) x0 x1 x2
    = agg gather_S50000x128_S800000x1_S800000x128_1_0_n_n_0_1_1128_wf scatter_S50000x128_S800000x1_S800000x128_1_0_0_1_wf
        bcast_S800000_S800000x1_0 bcast_S800000x1_S800000x128_0_1 bcast_S_S50000x128
        x0 x2 (val_main_v10 (F := Ideal) x1) (val_main_v15 (F := Ideal) x1) := rfl

theorem lidx18 (i : S50000x128.Idx) (k : Fin 128) : lidx_main_v18 i k = nix i k := by
  funext a
  match a with
  | ⟨0, _⟩ => rfl
  | ⟨1, _⟩ => rfl
theorem ridx18 (i : S50000x128.Idx) (k : Fin 128) : ridx_main_v18 i k = wix i k := by
  funext a
  match a with
  | ⟨0, _⟩ => rfl
  | ⟨1, _⟩ => rfl
theorem lidx20 (i : S50000x128.Idx) (k : Fin 128) : lidx_main_v20 i k = nix i k := by
  funext a
  match a with
  | ⟨0, _⟩ => rfl
  | ⟨1, _⟩ => rfl
theorem ridx20 (i : S50000x128.Idx) (k : Fin 128) : ridx_main_v20 i k = wix i k := by
  funext a
  match a with
  | ⟨0, _⟩ => rfl
  | ⟨1, _⟩ => rfl

/-- The aggregate at node `i`'s row and feature `k`. -/
theorem agg_at (i : S50000x128.Idx) (k : Fin 128) :
    val_main_v16 (F := Ideal) x0 x1 x2 (nix i k)
      = 0 + ∑ e ∈ tgt (val_main_v15 (F := Ideal) x1) (i 0), x2 (ix1 e) * x0 (ix2 (grow (val_main_v10 (F := Ideal) x1) e) k) := by
  rw [agg_eq]
  exact agg_apply _ _ _ _ _ x0 x2 (val_main_v10 (F := Ideal) x1) (val_main_v15 (F := Ideal) x1) (nix i k)

/-- THE REFERENCE'S RESULT: aggregate the raw rows, transform by W_relᵀ, add the root term and the bias. -/
theorem value : val_main_v24 (F := Ideal) x0 x1 x2 x3 x4 x5
    = convR x0 (fun e => x2 (ix1 e)) (val_main_v10 (F := Ideal) x1) (val_main_v15 (F := Ideal) x1)
        (val_main_v17 (F := Ideal) x3) (val_main_v19 (F := Ideal) x4) (fun d => x5 (ix1 d)) := by
  funext i
  rw [val_main_v24_apply, val_main_v21_apply, val_main_v18_apply, val_main_v20_apply, val_main_v23_apply, val_main_v22_apply]
  unfold convR xw
  refine congrArg₂ (fun p q : EReal => p + q) (congrArg₂ (fun p q : EReal => p + q)
    (Finset.sum_congr rfl fun k _ => ?_) (Finset.sum_congr rfl fun k _ => ?_)) ?_
  · rw [lidx18, ridx18]
    exact congrArg (fun p : EReal => p * val_main_v17 (F := Ideal) x3 (wix i k)) (agg_at x0 x1 x2 i k)
  · rw [lidx20, ridx20]
  · exact congrArg x5 (funext fun a => by
      match a with
      | ⟨0, _⟩ => rfl)

end Cert.ReferenceIdeal.RefVal

end
-- ==== Proof.Finite.lean ====
/-
  The precondition read back: every entry of the five float inputs is a real number.
  The printed predicate is a conjunction of five `jnp.all(|x| < +∞)`, one per float input; it is all ones, so each
  conjunct is one, so each comparison is one at every index, and an extended real whose absolute value `max x (-x)`
  lies strictly below `+∞` is neither infinity: it is the coercion of a real.
-/
import proofs.«150747_j87806311399691_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

instance : Subsingleton S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value is strictly below `+∞` is a real. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

variable [Facts]

/-- Under the printed precondition every entry of `x`, `edge_attr`, `W_rel`, `W_root` and `b` is a real. -/
theorem reals_of_pre (a0 : FVec Ideal S50000x128 .f32) (a1 : IVec S2x800000 32) (a2 : FVec Ideal S800000 .f32)
    (a3 a4 : FVec Ideal S128x128 .f32) (a5 : FVec Ideal S128 .f32)
    (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ValueIdx.ix0
  dsimp only [fn, fn_part1] at h0
  obtain ⟨h1, e5⟩ := IntOp.andi_eq_one.1 h0
  obtain ⟨h2, e4⟩ := IntOp.andi_eq_one.1 h1
  obtain ⟨h3, e3⟩ := IntOp.andi_eq_one.1 h2
  obtain ⟨e0, e2⟩ := IntOp.andi_eq_one.1 h3
  exact ⟨fun i => real_of_abs_lt _ (Host.reduce_andi_all _ _ _ _ _ e0 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i),
    fun i => real_of_abs_lt _ (Host.reduce_andi_all _ _ _ _ _ e5 i)⟩

end Cert.Finite

end
-- ==== Proof.lean ====
/-
  A graph convolution with sum aggregation, out_i = W_root·x_i + b + W_rel·(∑_{j→i} e_ji·x_j), proved equal, over the
  extended reals and for finite inputs, to its jnp reference.
  The kernel applies W_rel to every node first (one pallas_call, x·W_relᵀ), aggregates the transformed rows along
  the edges on the host (gather by source, scale by the edge weight, scatter-add by target) and finishes in a second
  pallas_call (x·W_rootᵀ + agg + b); the reference aggregates the raw rows and applies W_rel to the aggregate. Both
  read their edges through the same gather and the same accumulating scatter, whose indexing depends on the index
  arrays only, so the two results are the two arrangements of one double sum (Proof/Spec.lean), equal when the
  features, the edge weights and W_rel are finite: the precondition, read back in Proof/Finite.lean.
  The frames are the generated ones (the reference's is its run with the result dropped), and the ideal pass
  rewrote nothing, so the idealization claim is trivial.
-/
import proofs.«150747_j87806311399691_2_alg».proof.Defs
import proofs.«150747_j87806311399691_2_alg».proof.Proof.Gen.Kernel
import proofs.«150747_j87806311399691_2_alg».proof.Proof.Gen.Kernel.Skeleton
import proofs.«150747_j87806311399691_2_alg».proof.Proof.Gen.Kernel.Launch
import proofs.«150747_j87806311399691_2_alg».proof.Proof.Gen.Kernel.Points
import proofs.«150747_j87806311399691_2_alg».proof.Proof.Gen.Kernel.Frame
import proofs.«150747_j87806311399691_2_alg».proof.Proof.Gen.KernelIdeal
import proofs.«150747_j87806311399691_2_alg».proof.Proof.Gen.KernelIdeal.Skeleton
import proofs.«150747_j87806311399691_2_alg».proof.Proof.Gen.KernelIdeal.Launch
import proofs.«150747_j87806311399691_2_alg».proof.Proof.Gen.KernelIdeal.Points
import proofs.«150747_j87806311399691_2_alg».proof.Proof.Gen.KernelIdeal.Frame
import proofs.«150747_j87806311399691_2_alg».proof.Proof.Gen.ReferenceIdeal
import proofs.«150747_j87806311399691_2_alg».proof.Proof.Gen.Pre_finite_inputs
import proofs.«150747_j87806311399691_2_alg».proof.Proof.Gen.ReferenceIdeal.Run
import proofs.«150747_j87806311399691_2_alg».proof.Proof.Gen.ReferenceIdeal.Read
import proofs.«150747_j87806311399691_2_alg».proof.Proof.KRun
import proofs.«150747_j87806311399691_2_alg».proof.Proof.KValue
import proofs.«150747_j87806311399691_2_alg».proof.Proof.RValue
import proofs.«150747_j87806311399691_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx
open Cert.Spec Cert.KernelIdeal.Val

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to restate. -/
theorem preserves : Cert.preserves_Kernel_KernelIdeal := trivial

/-- The reference's index columns, transposed weights are the kernel's, term for term. -/
theorem src_eq (a1 : IVec Cert.KernelIdeal.S2x800000 32) : Cert.ReferenceIdeal.Read.val_main_v10 (F := Ideal) a1 = srcColOf (srcFlat a1) := rfl
theorem dst_eq (a1 : IVec Cert.KernelIdeal.S2x800000 32) : Cert.ReferenceIdeal.Read.val_main_v15 (F := Ideal) a1 = dstColOf (dstFlat a1) := rfl
theorem wrel_eq (a : Cert.KernelIdeal.S128x128.Idx → EReal) : Cert.ReferenceIdeal.Read.val_main_v17 (F := Ideal) a = wT a := rfl
theorem wroot_eq (a : Cert.KernelIdeal.S128x128.Idx → EReal) : Cert.ReferenceIdeal.Read.val_main_v19 (F := Ideal) a = wT a := rfl

/-- Every entry of a transposed finite matrix is finite. -/
theorem wT_real (a : Cert.KernelIdeal.S128x128.Idx → EReal) (h : ∀ i, ∃ r : ℝ, a i = (r : EReal)) (i : Cert.KernelIdeal.S128x128.Idx) :
    ∃ r : ℝ, wT a i = (r : EReal) := by
  unfold wT transpose
  exact h _

/-- Both programs, run from memories agreeing on the arguments, end with the result
    `convK x a src dst W_relᵀ W_rootᵀ b` of the kernel's arguments. -/
theorem algebraic : Cert.algebraic_KernelIdeal_ReferenceIdeal := by
  intro m ρ m' ρ' hpre hagree
  refine ⟨fun c => convK (m ((c.tc : Thread Cert.KernelIdeal.nD Cert.KernelIdeal.τ).loc Cert.KernelIdeal.main_arg0)) (fun e => (m ((c.tc : Thread Cert.KernelIdeal.nD Cert.KernelIdeal.τ).loc Cert.KernelIdeal.main_arg2)) (ix1 e)) (srcColOf (srcFlat (m ((c.tc : Thread Cert.KernelIdeal.nD Cert.KernelIdeal.τ).loc Cert.KernelIdeal.main_arg1)))) (dstColOf (dstFlat (m ((c.tc : Thread Cert.KernelIdeal.nD Cert.KernelIdeal.τ).loc Cert.KernelIdeal.main_arg1))))
      (wT (m ((c.tc : Thread Cert.KernelIdeal.nD Cert.KernelIdeal.τ).loc Cert.KernelIdeal.main_arg3))) (wT (m ((c.tc : Thread Cert.KernelIdeal.nD Cert.KernelIdeal.τ).loc Cert.KernelIdeal.main_arg4))) (fun d => (m ((c.tc : Thread Cert.KernelIdeal.nD Cert.KernelIdeal.τ).loc Cert.KernelIdeal.main_arg5)) (ix1 d)), ?_, ?_⟩
  · exact (θ_run Cert.KernelIdeal.defs _ _).mono
      (fun r h c => ⟨(h c).1.trans (Cert.KernelIdeal.Val.value m ρ c), (h c).2⟩)
      (Cert.KernelIdeal.RunV.run_main (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5⟩ := hagree c
    obtain ⟨f0, f2, f3, f4, f5⟩ := Cert.Finite.reals_of_pre _ _ _ _ _ _ (hpre c)
    refine (h c).1.trans ((Cert.ReferenceIdeal.Read.val_main_v24_eq _ _ _ _ _ _).trans ?_)
    rw [Cert.ReferenceIdeal.RefVal.value, e0, e1, e2, e3, e4, e5, src_eq, dst_eq, wrel_eq, wroot_eq]
    exact (convK_eq_convR _ _ _ _ _ _ _ f0 (fun e => f2 (ix1 e)) (wT_real _ f3)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
